-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x69888x7 : Shape := ⟨3, ![16, 69888, 7]⟩
abbrev S16x69888 : Shape := ⟨2, ![16, 69888]⟩
abbrev S7 : Shape := ⟨1, ![7]⟩
abbrev S_ : Shape := ⟨0, ![]⟩

class Facts : Prop where
  bcast_S_S16x69888x7 : S_.BroadcastsInDim S16x69888x7 (![] : Fin 0 → Fin S16x69888x7.rank)
  reducesTo_S16x69888x7_S_d0_1_2 : S16x69888x7.ReducesTo [0, 1, 2] S_
  h_S_ : 0 < S_.numel
  bcast_S_S16x69888 : S_.BroadcastsInDim S16x69888 (![] : Fin 0 → Fin S16x69888.rank)
  reducesTo_S16x69888_S_d0_1 : S16x69888.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_v13 : IVec S_ 1) (main_v16 : IVec S7 1) : IVec S_ 1 :=
  let main_c_5 : IVec S_ 1 := constantI S_ 1 1#1
  let main_v17 : IVec S_ 1 := (fun x v => Host.reduce IntOp.andi x v reducesTo_S7_S_d0 h_S_) main_v16 main_c_5
  let main_v18 : IVec S_ 1 := andi main_v13 main_v17
  main_v18

def fn {F : FTy → Type} [FloatOps F] (main_arg0 : FVec F S16x69888x7 .f32) (main_arg1 : FVec F S16x69888x7 .f32) (main_arg2 : FVec F S16x69888 .f32) (main_arg3 : FVec F S7 .f32) : IVec S_ 1 :=
  let main_v0 : FVec F S16x69888x7 .f32 := Host.absf main_arg0
  let main_cst : FVec F S_ .f32 := constant S_ .f32 0x7F800000#32
  let main_v1 : FVec F S16x69888x7 .f32 := broadcastInDim S16x69888x7 ![] bcast_S_S16x69888x7 main_cst
  let main_v2 : IVec S16x69888x7 1 := cmpf .olt main_v0 main_v1
  let main_c : IVec S_ 1 := constantI S_ 1 1#1
  let main_v3 : IVec S_ 1 := (fun x v => Host.reduce IntOp.andi x v reducesTo_S16x69888x7_S_d0_1_2 h_S_) main_v2 main_c
  let main_v4 : FVec F S16x69888x7 .f32 := Host.absf main_arg1
  let main_cst_0 : FVec F S_ .f32 := constant S_ .f32 0x7F800000#32
  let main_v5 : FVec F S16x69888x7 .f32 := broadcastInDim S16x69888x7 ![] bcast_S_S16x69888x7 main_cst_0
  let main_v6 : IVec S16x69888x7 1 := cmpf .olt main_v4 main_v5
  let main_c_1 : IVec S_ 1 := constantI S_ 1 1#1
  let main_v7 : IVec S_ 1 := (fun x v => Host.reduce IntOp.andi x v reducesTo_S16x69888x7_S_d0_1_2 h_S_) main_v6 main_c_1
  let main_v8 : IVec S_ 1 := andi main_v3 main_v7
  let main_v9 : FVec F S16x69888 .f32 := Host.absf main_arg2
  let main_cst_2 : FVec F S_ .f32 := constant S_ .f32 0x7F800000#32
  let main_v10 : FVec F S16x69888 .f32 := broadcastInDim S16x69888 ![] bcast_S_S16x69888 main_cst_2
  let main_v11 : IVec S16x69888 1 := cmpf .olt main_v9 main_v10
  let main_c_3 : IVec S_ 1 := constantI S_ 1 1#1
  let main_v12 : IVec S_ 1 := (fun x v => Host.reduce IntOp.andi x v reducesTo_S16x69888_S_d0_1 h_S_) main_v11 main_c_3
  let main_v13 : IVec S_ 1 := andi main_v8 main_v12
  let main_v14 : FVec F S7 .f32 := Host.absf main_arg3
  let main_cst_4 : FVec F S_ .f32 := constant S_ .f32 0x7F800000#32
  let main_v15 : FVec F S7 .f32 := broadcastInDim S7 ![] bcast_S_S7 main_cst_4
  let main_v16 : IVec S7 1 := cmpf .olt main_v14 main_v15
  fn_part1 (F := F) main_v13 main_v16
-- ==== Kernel.lean ====
abbrev S16x69888x7 : Shape := ⟨3, ![16, 69888, 7]⟩
abbrev S16x69888 : Shape := ⟨2, ![16, 69888]⟩
abbrev S7 : Shape := ⟨1, ![7]⟩
abbrev S8736x896 : Shape := ⟨2, ![8736, 896]⟩
abbrev S8736x128 : Shape := ⟨2, ![8736, 128]⟩
abbrev S1x7 : Shape := ⟨2, ![1, 7]⟩
abbrev S7x896 : Shape := ⟨2, ![7, 896]⟩
abbrev S_ : Shape := ⟨0, ![]⟩
abbrev S128x896 : Shape := ⟨2, ![128, 896]⟩
abbrev S336x896 : Shape := ⟨2, ![336, 896]⟩
abbrev S336x128 : Shape := ⟨2, ![336, 128]⟩
abbrev S1x896 : Shape := ⟨2, ![1, 896]⟩

abbrev nBuf : Space → Nat
  | .hbm => 58
  | .vmem => 11
  | .smem => 0
  | _ => 0

abbrev bufTy : (tb : Table) → Fin (tcTables nBuf tb) → BufTy
  | .hbm, ⟨0, _⟩ => ⟨S16x69888x7, .f32⟩
  | .hbm, ⟨1, _⟩ => ⟨S16x69888x7, .f32⟩
  | .hbm, ⟨2, _⟩ => ⟨S16x69888, .f32⟩
  | .hbm, ⟨3, _⟩ => ⟨S7, .f32⟩
  | .hbm, ⟨4, _⟩ => ⟨S8736x896, .f32⟩
  | .hbm, ⟨5, _⟩ => ⟨S8736x896, .f32⟩
  | .hbm, ⟨6, _⟩ => ⟨S8736x128, .f32⟩
  | .hbm, ⟨7, _⟩ => ⟨S1x7, .f32⟩
  | .hbm, ⟨8, _⟩ => ⟨S7x896, .i32⟩
  | .hbm, ⟨9, _⟩ => ⟨S7x896, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S7x896, .i32⟩
  | .hbm, ⟨17, _⟩ => ⟨S7x896, .i32⟩
  | .hbm, ⟨18, _⟩ => ⟨S_, .i32⟩
  | .hbm, ⟨19, _⟩ => ⟨S7x896, .i32⟩
  | .hbm, ⟨20, _⟩ => ⟨S7x896, .i1⟩
  | .hbm, ⟨21, _⟩ => ⟨S_, .i32⟩
  | .hbm, ⟨22, _⟩ => ⟨S7x896, .i32⟩
  | .hbm, ⟨23, _⟩ => ⟨S7x896, .i1⟩
  | .hbm, ⟨24, _⟩ => ⟨S_, .i32⟩
  | .hbm, ⟨25, _⟩ => ⟨S_, .i1⟩
  | .hbm, ⟨26, _⟩ => ⟨S7x896, .i1⟩
  | .hbm, ⟨27, _⟩ => ⟨S7x896, .i1⟩
  | .hbm, ⟨28, _⟩ => ⟨S7x896, .i1⟩
  | .hbm, ⟨29, _⟩ => ⟨S7x896, .i32⟩
  | .hbm, ⟨30, _⟩ => ⟨S7x896, .i32⟩
  | .hbm, ⟨31, _⟩ => ⟨S7x896, .i32⟩
  | .hbm, ⟨32, _⟩ => ⟨S7x896, .i1⟩
  | .hbm, ⟨33, _⟩ => ⟨S7x896, .f32⟩
  | .hbm, ⟨34, _⟩ => ⟨S128x896, .i32⟩
  | .hbm, ⟨35, _⟩ => ⟨S128x896, .i32⟩
  | .hbm, ⟨36, _⟩ => ⟨S_, .i32⟩
  | .hbm, ⟨37, _⟩ => ⟨S_, .i32⟩
  | .hbm, ⟨38, _⟩ => ⟨S128x896, .i32⟩
  | .hbm, ⟨39, _⟩ => ⟨S128x896, .i32⟩
  | .hbm, ⟨40, _⟩ => ⟨S128x896, .i32⟩
  | .hbm, ⟨41, _⟩ => ⟨S_, .i32⟩
  | .hbm, ⟨42, _⟩ => ⟨S128x896, .i32⟩
  | .hbm, ⟨43, _⟩ => ⟨S128x896, .i1⟩
  | .hbm, ⟨44, _⟩ => ⟨S128x896, .i32⟩
  | .hbm, ⟨45, _⟩ => ⟨S128x896, .i32⟩
  | .hbm, ⟨46, _⟩ => ⟨S_, .i32⟩
  | .hbm, ⟨47, _⟩ => ⟨S128x896, .i32⟩
  | .hbm, ⟨48, _⟩ => ⟨S128x896, .i1⟩
  | .hbm, ⟨49, _⟩ => ⟨S128x896, .i1⟩
  | .hbm, ⟨50, _⟩ => ⟨S_, .i32⟩
  | .hbm, ⟨51, _⟩ => ⟨S128x896, .i32⟩
  | .hbm, ⟨52, _⟩ => ⟨S128x896, .i32⟩
  | .hbm, ⟨53, _⟩ => ⟨S128x896, .i32⟩
  | .hbm, ⟨54, _⟩ => ⟨S128x896, .i1⟩
  | .hbm, ⟨55, _⟩ => ⟨S128x896, .f32⟩
  | .hbm, ⟨56, _⟩ => ⟨S8736x896, .f32⟩
  | .hbm, ⟨57, _⟩ => ⟨S16x69888x7, .f32⟩
  | .local _ .vmem, ⟨0, _⟩ => ⟨S336x896, .f32⟩
  | .local _ .vmem, ⟨1, _⟩ => ⟨S336x896, .f32⟩
  | .local _ .vmem, ⟨2, _⟩ => ⟨S336x896, .f32⟩
  | .local _ .vmem, ⟨3, _⟩ => ⟨S336x896, .f32⟩
  | .local _ .vmem, ⟨4, _⟩ => ⟨S336x128, .f32⟩
  | .local _ .vmem, ⟨5, _⟩ => ⟨S336x128, .f32⟩
  | .local _ .vmem, ⟨6, _⟩ => ⟨S1x7, .f32⟩
  | .local _ .vmem, ⟨7, _⟩ => ⟨S7x896, .f32⟩
  | .local _ .vmem, ⟨8, _⟩ => ⟨S128x896, .f32⟩
  | .local _ .vmem, ⟨9, _⟩ => ⟨S336x896, .f32⟩
  | .local _ .vmem, ⟨10, _⟩ => ⟨S336x896, .f32⟩
  | _, _ => ⟨S16x69888x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S336x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S336x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S336x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x896 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S336x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16x69888x7_S8736x896 : S16x69888x7.ShapeCasts S8736x896
  shapeCasts_S16x69888_S8736x128 : S16x69888.ShapeCasts S8736x128
  shapeCasts_S7_S1x7 : S7.ShapeCasts S1x7
  bcast_S_S7x896 : S_.BroadcastsInDim S7x896 (![] : Fin 0 → Fin S7x896.rank)
  bcast_S_S128x896 : S_.BroadcastsInDim S128x896 (![] : Fin 0 → Fin S128x896.rank)
  inb_S336x896_S336x896_0_0 : ∀ a, (![0, 0] : Fin 2 → Nat) a + S336x896.size a ≤ S336x896.size a
  h_S336x896 : 0 < S336x896.numel
  shapeCasts_S336x896_S336x896 : S336x896.ShapeCasts S336x896
  inb_S1x7_S1x7_0_0 : ∀ a, (![0, 0] : Fin 2 → Nat) a + S1x7.size a ≤ S1x7.size a
  h_S1x7 : 0 < S1x7.numel
  shapeCasts_S1x7_S1x7 : S1x7.ShapeCasts S1x7
  inb_S7x896_S7x896_0_0 : ∀ a, (![0, 0] : Fin 2 → Nat) a + S7x896.size a ≤ S7x896.size a
  h_S7x896 : 0 < S7x896.numel
  shapeCasts_S7x896_S7x896 : S7x896.ShapeCasts S7x896
  inb_S336x128_S336x128_0_0 : ∀ a, (![0, 0] : Fin 2 → Nat) a + S336x128.size a ≤ S336x128.size a
  h_S336x128 : 0 < S336x128.numel
  shapeCasts_S336x128_S336x128 : S336x128.ShapeCasts S336x128
  inb_S128x896_S128x896_0_0 : ∀ a, (![0, 0] : Fin 2 → Nat) a + S128x896.size a ≤ S128x896.size a
  h_S128x896 : 0 < S128x896.numel
  shapeCasts_S128x896_S128x896 : S128x896.ShapeCasts S128x896
  broadcasts_S1x896_S336x896 : S1x896.Broadcasts S336x896
  shapeCasts_S8736x896_S16x69888x7 : S8736x896.ShapeCasts S16x69888x7
  dot_S1x7_S7x896_S1x896_1_0_0_1_n_n_wf : DotDims.WF S1x7 S7x896 S1x896 [1] [0] [0] [1] [] []
  dot_S336x128_S128x896_S336x896_1_0_0_1_n_n_wf : DotDims.WF S336x128 S128x896 S336x896 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S336x896.size a ≤ S8736x896.size a
  hwx0_0 : ∀ i : grid0.Coords, EltTy.bits .f32 = 32 ∨ (Rect.block (s := S8736x896) S336x896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S336x896.size a ≤ S8736x896.size a
  hwx0_1 : ∀ i : grid0.Coords, EltTy.bits .f32 = 32 ∨ (Rect.block (s := S8736x896) S336x896.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S336x128.size a ≤ S8736x128.size a
  hwx0_2 : ∀ i : grid0.Coords, EltTy.bits .f32 = 32 ∨ (Rect.block (s := S8736x128) S336x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x7.size a ≤ S1x7.size a
  hwx0_3 : ∀ i : grid0.Coords, EltTy.bits .f32 = 32 ∨ (Rect.block (s := S1x7) S1x7.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x896.size a ≤ S7x896.size a
  hwx0_4 : ∀ i : grid0.Coords, EltTy.bits .f32 = 32 ∨ (Rect.block (s := S7x896) S7x896.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x896.size a ≤ S128x896.size a
  hwx0_5 : ∀ i : grid0.Coords, EltTy.bits .f32 = 32 ∨ (Rect.block (s := S128x896) S128x896.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S336x896.size a ≤ S8736x896.size a
  hwx0_6 : ∀ i : grid0.Coords, EltTy.bits .f32 = 32 ∨ (Rect.block (s := S8736x896) S336x896.size (cc0_transform_6 i) (hinb0_6 i)).WholeWords (EltTy.packing .f32)

variable [Facts₀]

def dot_S1x7_S7x896_S1x896_1_0_0_1_n_n : DotDims S1x7 S7x896 S1x896 where
  lhsContracting := [1]
  rhsContracting := [0]
  lhsNonContracting := [0]
  rhsNonContracting := [1]
  lhsBatch := []
  rhsBatch := []
  wf := dot_S1x7_S7x896_S1x896_1_0_0_1_n_n_wf
def dot_S336x128_S128x896_S336x896_1_0_0_1_n_n : DotDims S336x128 S128x896 S336x896 where
  lhsContracting := [1]
  rhsContracting := [0]
  lhsNonContracting := [0]
  rhsNonContracting := [1]
  lhsBatch := []
  rhsBatch := []
  wf := dot_S336x128_S128x896_S336x896_1_0_0_1_n_n_wf

abbrev win0_0 : Pipeline.Window sig grid0 :=
  Pipeline.Window.ofSpec (Memref.whole main_v0) S336x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S336x896.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S336x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S7x896.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S128x896.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S336x896.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x69888x7 : Shape := ⟨3, ![16, 69888, 7]⟩
abbrev S16x69888 : Shape := ⟨2, ![16, 69888]⟩
abbrev S7 : Shape := ⟨1, ![7]⟩
abbrev S16x489216 : Shape := ⟨2, ![16, 489216]⟩
abbrev S16x546x896 : Shape := ⟨3, ![16, 546, 896]⟩
abbrev S16x546x128 : Shape := ⟨3, ![16, 546, 128]⟩
abbrev S1x7 : Shape := ⟨2, ![1, 7]⟩
abbrev S128x7 : Shape := ⟨2, ![128, 7]⟩
abbrev S896 : Shape := ⟨1, ![896]⟩
abbrev S1x1x896 : Shape := ⟨3, ![1, 1, 896]⟩
abbrev S128x128 : Shape := ⟨2, ![128, 128]⟩
abbrev S_ : Shape := ⟨0, ![]⟩
abbrev S128x128x7 : Shape := ⟨3, ![128, 128, 7]⟩
abbrev S128x896 : Shape := ⟨2, ![128, 896]⟩
abbrev S1x546x896 : Shape := ⟨3, ![1, 546, 896]⟩
abbrev S1x546x128 : Shape := ⟨3, ![1, 546, 128]⟩
abbrev S546x128 : Shape := ⟨2, ![546, 128]⟩
abbrev S546x896 : Shape := ⟨2, ![546, 896]⟩

abbrev nBuf : Space → Nat
  | .hbm => 25
  | .vmem => 10
  | .smem => 0
  | _ => 0

abbrev bufTy : (tb : Table) → Fin (tcTables nBuf tb) → BufTy
  | .hbm, ⟨0, _⟩ => ⟨S16x69888x7, .f32⟩
  | .hbm, ⟨1, _⟩ => ⟨S16x69888x7, .f32⟩
  | .hbm, ⟨2, _⟩ => ⟨S16x69888, .f32⟩
  | .hbm, ⟨3, _⟩ => ⟨S7, .f32⟩
  | .hbm, ⟨4, _⟩ => ⟨S16x489216, .f32⟩
  | .hbm, ⟨5, _⟩ => ⟨S16x546x896, .f32⟩
  | .hbm, ⟨6, _⟩ => ⟨S16x489216, .f32⟩
  | .hbm, ⟨7, _⟩ => ⟨S16x546x896, .f32⟩
  | .hbm, ⟨8, _⟩ => ⟨S16x546x128, .f32⟩
  | .hbm, ⟨9, _⟩ => ⟨S1x7, .f32⟩
  | .hbm, ⟨10, _⟩ => ⟨S128x7, .f32⟩
  | .hbm, ⟨11, _⟩ => ⟨S896, .f32⟩
  | .hbm, ⟨12, _⟩ => ⟨S1x1x896, .f32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S128x128, .f32⟩
  | .hbm, ⟨20, _⟩ => ⟨S128x128x7, .f32⟩
  | .hbm, ⟨21, _⟩ => ⟨S128x896, .f32⟩
  | .hbm, ⟨22, _⟩ => ⟨S16x546x896, .f32⟩
  | .hbm, ⟨23, _⟩ => ⟨S16x489216, .f32⟩
  | .hbm, ⟨24, _⟩ => ⟨S16x69888x7, .f32⟩
  | .local _ .vmem, ⟨0, _⟩ => ⟨S1x546x896, .f32⟩
  | .local _ .vmem, ⟨1, _⟩ => ⟨S1x546x896, .f32⟩
  | .local _ .vmem, ⟨2, _⟩ => ⟨S1x546x896, .f32⟩
  | .local _ .vmem, ⟨3, _⟩ => ⟨S1x546x896, .f32⟩
  | .local _ .vmem, ⟨4, _⟩ => ⟨S1x1x896, .f32⟩
  | .local _ .vmem, ⟨5, _⟩ => ⟨S1x546x128, .f32⟩
  | .local _ .vmem, ⟨6, _⟩ => ⟨S1x546x128, .f32⟩
  | .local _ .vmem, ⟨7, _⟩ => ⟨S128x896, .f32⟩
  | .local _ .vmem, ⟨8, _⟩ => ⟨S1x546x896, .f32⟩
  | .local _ .vmem, ⟨9, _⟩ => ⟨S1x546x896, .f32⟩
  | _, _ => ⟨S16x69888x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x546x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x546x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x546x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x546x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S16x69888x7_S16x489216 : S16x69888x7.ShapeCasts S16x489216
  shapeCasts_S16x489216_S16x546x896 : S16x489216.ShapeCasts S16x546x896
  shapeCasts_S16x69888_S16x546x128 : S16x69888.ShapeCasts S16x546x128
  shapeCasts_S7_S1x7 : S7.ShapeCasts S1x7
  bcast_S1x7_S128x7_0_1 : S1x7.BroadcastsInDim S128x7 (![0, 1] : Fin 2 → Fin S128x7.rank)
  shapeCasts_S128x7_S896 : S128x7.ShapeCasts S896
  shapeCasts_S896_S1x1x896 : S896.ShapeCasts S1x1x896
  bcast_S_S128x128 : S_.BroadcastsInDim S128x128 (![] : Fin 0 → Fin S128x128.rank)
  bcast_S128x128_S128x128x7_0_1 : S128x128.BroadcastsInDim S128x128x7 (![0, 1] : Fin 2 → Fin S128x128x7.rank)
  shapeCasts_S128x128x7_S128x896 : S128x128x7.ShapeCasts S128x896
  inb_S1x546x896_S1x546x896_0_0_0 : ∀ a, (![0, 0, 0] : Fin 3 → Nat) a + S1x546x896.size a ≤ S1x546x896.size a
  h_S1x546x896 : 0 < S1x546x896.numel
  shapeCasts_S1x546x896_S1x546x896 : S1x546x896.ShapeCasts S1x546x896
  inb_S1x1x896_S1x1x896_0_0_0 : ∀ a, (![0, 0, 0] : Fin 3 → Nat) a + S1x1x896.size a ≤ S1x1x896.size a
  h_S1x1x896 : 0 < S1x1x896.numel
  shapeCasts_S1x1x896_S1x1x896 : S1x1x896.ShapeCasts S1x1x896
  broadcasts_S1x1x896_S1x546x896 : S1x1x896.Broadcasts S1x546x896
  inb_S1x546x128_S1x546x128_0_0_0 : ∀ a, (![0, 0, 0] : Fin 3 → Nat) a + S1x546x128.size a ≤ S1x546x128.size a
  h_S1x546x128 : 0 < S1x546x128.numel
  shapeCasts_S1x546x128_S546x128 : S1x546x128.ShapeCasts S546x128
  inb_S128x896_S128x896_0_0 : ∀ a, (![0, 0] : Fin 2 → Nat) a + S128x896.size a ≤ S128x896.size a
  h_S128x896 : 0 < S128x896.numel
  shapeCasts_S128x896_S128x896 : S128x896.ShapeCasts S128x896
  shapeCasts_S546x896_S1x546x896 : S546x896.ShapeCasts S1x546x896
  shapeCasts_S16x546x896_S16x489216 : S16x546x896.ShapeCasts S16x489216
  shapeCasts_S16x489216_S16x69888x7 : S16x489216.ShapeCasts S16x69888x7
  dot_S546x128_S128x896_S546x896_1_0_0_1_n_n_wf : DotDims.WF S546x128 S128x896 S546x896 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x546x896.size a ≤ S16x546x896.size a
  hwx0_0 : ∀ i : grid0.Coords, EltTy.bits .f32 = 32 ∨ (Rect.block (s := S16x546x896) S1x546x896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x546x896.size a ≤ S16x546x896.size a
  hwx0_1 : ∀ i : grid0.Coords, EltTy.bits .f32 = 32 ∨ (Rect.block (s := S16x546x896) S1x546x896.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x896.size a ≤ S1x1x896.size a
  hwx0_2 : ∀ i : grid0.Coords, EltTy.bits .f32 = 32 ∨ (Rect.block (s := S1x1x896) S1x1x896.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x546x128.size a ≤ S16x546x128.size a
  hwx0_3 : ∀ i : grid0.Coords, EltTy.bits .f32 = 32 ∨ (Rect.block (s := S16x546x128) S1x546x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x896.size a ≤ S128x896.size a
  hwx0_4 : ∀ i : grid0.Coords, EltTy.bits .f32 = 32 ∨ (Rect.block (s := S128x896) S128x896.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x546x896.size a ≤ S16x546x896.size a
  hwx0_5 : ∀ i : grid0.Coords, EltTy.bits .f32 = 32 ∨ (Rect.block (s := S16x546x896) S1x546x896.size (cc0_transform_5 i) (hinb0_5 i)).WholeWords (EltTy.packing .f32)

variable [Facts₀]

def dot_S546x128_S128x896_S546x896_1_0_0_1_n_n : DotDims S546x128 S128x896 S546x896 where
  lhsContracting := [1]
  rhsContracting := [0]
  lhsNonContracting := [0]
  rhsNonContracting := [1]
  lhsBatch := []
  rhsBatch := []
  wf := dot_S546x128_S128x896_S546x896_1_0_0_1_n_n_wf

abbrev win0_0 : Pipeline.Window sig grid0 :=
  Pipeline.Window.ofSpec (Memref.whole main_v1) S1x546x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x546x896.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x896.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x546x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x896.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x546x896.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Loss.lean ====
/-
  The weighted smooth-L1 loss, element by element, over the extended reals.

  For a prediction `x`, a target `t`, a code weight `c` and an anchor weight `w` the loss is
  `ℓ(|(x - t') · c|) · w`, where `t'` is `t` unless `t` compares unequal to itself (then `x`), and
  `ℓ(n) = 4.5 · n · n` below the threshold `β` and `n - β/2` from it on; `β`, `4.5` and `β/2` are the three
  single-precision literals both programs carry, never evaluated here.

  `spec` is the whole result: entry `(b, a, k)` of the `[16, 69888, 7]` output depends on the same entry of the
  predictions and targets, on code weight `k` and on anchor weight `(b, a)`.

  Also here: a sum against a 0/1 row with a single one picks one term (`sum_mul_pick`), which is how both programs
  spread the code weights and the anchor weights over the 896 lanes of a row.
-/
import Idealize.ShloMosaic.PureOps.Ideal
import Idealize.ShloMosaic.Lib.ValueIdx

noncomputable section

namespace Cert.SmoothL1

open Idealize.ShloMosaic Idealize.ShloMosaic.ValueIdx

/-- The unweighted loss of one element: `ℓ(|(x - t') · c|)`. -/
def core (x t c : Ideal .f32) : Ideal .f32 :=
  Scalar.select
    (FloatOps.cmpf .olt
      (FloatOps.absf (FloatOps.mulf (FloatOps.subf x (Scalar.select (FloatOps.cmpf .one t t) x t)) c))
      (Scalar.ofBits .f32 0x3DE38E39#32))
    (FloatOps.mulf
      (FloatOps.mulf (Scalar.ofBits .f32 0x40900000#32)
        (FloatOps.absf (FloatOps.mulf (FloatOps.subf x (Scalar.select (FloatOps.cmpf .one t t) x t)) c)))
      (FloatOps.absf (FloatOps.mulf (FloatOps.subf x (Scalar.select (FloatOps.cmpf .one t t) x t)) c)))
    (FloatOps.subf
      (FloatOps.absf (FloatOps.mulf (FloatOps.subf x (Scalar.select (FloatOps.cmpf .one t t) x t)) c))
      (Scalar.ofBits .f32 0x3D638E39#32))

/-- The loss of one element, weighted by its anchor's weight. -/
def loss (x t c w : Ideal .f32) : Ideal .f32 := FloatOps.mulf (core x t c) w

/-- The result array: entry `(b, a, k)` is the loss of that entry under code weight `k` and anchor weight `(b, a)`. -/
def spec (x t : (⟨3, ![16, 69888, 7]⟩ : Shape).Idx → EReal) (w : (⟨2, ![16, 69888]⟩ : Shape).Idx → EReal)
    (cw : (⟨1, ![7]⟩ : Shape).Idx → EReal) : (⟨3, ![16, 69888, 7]⟩ : Shape).Idx → EReal :=
  fun j => loss (x j) (t j) (cw (ix1 (j 2))) (w (ix2 (j 0) (j 1)))

/-- A sum of products against a row that is one at position `v` and zero elsewhere is the factor at `v`. -/
theorem sum_mul_pick {n : ℕ} (f e : Fin n → EReal) (v : ℕ) (hv : v < n)
    (he : ∀ k : Fin n, e k = if v = k.val then ((1 : ℝ) : EReal) else ((0 : ℝ) : EReal)) :
    ∑ k : Fin n, f k * e k = f ⟨v, hv⟩ := by
  rw [Finset.sum_eq_single (⟨v, hv⟩ : Fin n)]
  · rw [he ⟨v, hv⟩, if_pos rfl, EReal.coe_one, mul_one]
  · intro k _ hk
    have hne : ¬ v = k.val := fun h => hk (Fin.ext h.symm)
    rw [he k, if_neg hne, EReal.coe_zero, mul_zero]
  · intro h
    exact absurd (Finset.mem_univ _) h

end Cert.SmoothL1

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.KernelBody.lean ====
/-
  What one grid point of the kernel computes, element by element.

  A point holds a `[336, 896]` block of predictions and of targets, the matching `[336, 128]` block of anchor
  weights, the `[1, 7]` code weights and the two 0/1 matrices.  Its result at `(p, q)` is the loss of the element at
  `(p, q)` under the code weight `Σ_k cw (0, k) · codeRows (k, q)` and the anchor weight
  `Σ_a w (p, a) · anchorRows (a, q)`: two matrix products into zero accumulators, exact sums over the extended reals.
-/
import proofs.«151317_g2000705892487599_pallasbulk_762_2_alg».proof.Proof.Gen.KernelIdeal.Frame
import proofs.«151317_g2000705892487599_pallasbulk_762_2_alg».proof.Proof.Loss
import proofs.«151317_g2000705892487599_pallasbulk_762_2_alg».proof.Proof.LibPlainProduct
import Idealize.ShloMosaic.Lib.Pipeline.Value
import Idealize.ShloMosaic.Lib.ValueIdx
import Idealize.ShloMosaic.Lib.ValueLayout

noncomputable section

namespace Cert.KernelIdeal.Body

open Idealize.ShloMosaic Idealize.ShloMosaic.ValueIdx
open Cert.KernelIdeal Cert.KernelIdeal.Gen Cert.SmoothL1

/-- The stored value at `(p, q)` of a point's block. -/
theorem pay_apply (x t : FVec Ideal S336x896 .f32) (cw : FVec Ideal S1x7 .f32) (ec : FVec Ideal S7x896 .f32)
    (w : FVec Ideal S336x128 .f32) (ew : FVec Ideal S128x896 .f32) (p : Fin 336) (q : Fin 896) :
    k0_pay1 x t cw ec w ew (ix2 p q)
      = loss (x (ix2 p q)) (t (ix2 p q)) (∑ k : Fin 7, cw (ix2 (0 : Fin 1) k) * ec (ix2 k q))
          (∑ a : Fin 128, w (ix2 p a) * ew (ix2 a q)) := by
  have hc := (broadcastTo_1b_ab_apply
      (FloatOps.matmul dot_S1x7_S7x896_S1x896_1_0_0_1_n_n none cw ec (constant S1x896 .f32 0x00000000#32))
      Gen.broadcasts_S1x896_S336x896 p q).trans
    (Cert.PlainProduct.matmul_nn_apply Gen.dot_S1x7_S7x896_S1x896_1_0_0_1_n_n_wf none cw ec (0 : Fin 1) q)
  have hw : FloatOps.matmul dot_S336x128_S128x896_S336x896_1_0_0_1_n_n none w ew (constant S336x896 .f32 0x00000000#32) (ix2 p q)
      = ∑ a : Fin 128, w (ix2 p a) * ew (ix2 a q) :=
    Cert.PlainProduct.matmul_nn_apply Gen.dot_S336x128_S128x896_S336x896_1_0_0_1_n_n_wf none w ew p q
  unfold k0_pay1
  simp only [shapeCast_self]
  show loss (x (ix2 p q)) (t (ix2 p q))
      (broadcastTo S336x896
        (FloatOps.matmul dot_S1x7_S7x896_S1x896_1_0_0_1_n_n none cw ec (constant S1x896 .f32 0x00000000#32))
        Gen.broadcasts_S1x896_S336x896 (ix2 p q))
      (FloatOps.matmul dot_S336x128_S128x896_S336x896_1_0_0_1_n_n none w ew (constant S336x896 .f32 0x00000000#32) (ix2 p q)) = _
  rw [hc, hw]

end Cert.KernelIdeal.Body

end
-- ==== Proof.RowLayout.lean ====
/-
  Two lane-dense layouts of the same loss, and why both are the plain result.

  Both programs re-lay the `16 · 69888 · 7` elements row-major into rows of 896 lanes (128 anchors of 7 codes).  One
  takes all `8736` rows at once (`flatRows`), the other keeps the 16 batches apart, 546 rows each (`batchRows`).
  In either layout the element with row-major position `f = (b · 69888 + a) · 7 + k` sits in lane `f % 896`, whose
  code is `f % 896 % 7 = k` and whose anchor within the row is `f % 896 / 7 = a % 128`; its row holds anchors
  `128 · (a / 128) …` of batch `b`.  The code weight reaches the lane either through the 0/1 matrix
  `lane % 7 = code` (a sum with one non-zero term) or already spread over the lanes; the anchor weight always through
  the 0/1 matrix `lane / 7 = anchor`.  So each layout, re-laid back as `[16, 69888, 7]`, is `spec`.
-/
import proofs.«151317_g2000705892487599_pallasbulk_762_2_alg».proof.Proof.Loss
import Idealize.ShloMosaic.Lib.Pipeline.Value
import Idealize.ShloMosaic.Lib.ValueIdx

noncomputable section

namespace Cert.SmoothL1

open Idealize.ShloMosaic Idealize.ShloMosaic.ValueIdx

/-- All rows at once: entry `(r, l)` is the loss of entry `(r, l)` under the code weight
    `Σ_k CW (0, k) · EC (k, l)` and the anchor weight `Σ_a W (r, a) · EW (a, l)`. -/
def flatRows (X T : (⟨2, ![8736, 896]⟩ : Shape).Idx → EReal) (W : (⟨2, ![8736, 128]⟩ : Shape).Idx → EReal)
    (CW : (⟨2, ![1, 7]⟩ : Shape).Idx → EReal) (EC : (⟨2, ![7, 896]⟩ : Shape).Idx → EReal)
    (EW : (⟨2, ![128, 896]⟩ : Shape).Idx → EReal) : (⟨2, ![8736, 896]⟩ : Shape).Idx → EReal :=
  fun i => loss (X i) (T i) (∑ k : Fin 7, CW (ix2 (0 : Fin 1) k) * EC (ix2 k (i 1)))
    (∑ a : Fin 128, W (ix2 (i 0) a) * EW (ix2 a (i 1)))

theorem flatRows_apply (X T : (⟨2, ![8736, 896]⟩ : Shape).Idx → EReal) (W : (⟨2, ![8736, 128]⟩ : Shape).Idx → EReal)
    (CW : (⟨2, ![1, 7]⟩ : Shape).Idx → EReal) (EC : (⟨2, ![7, 896]⟩ : Shape).Idx → EReal)
    (EW : (⟨2, ![128, 896]⟩ : Shape).Idx → EReal) (r : Fin 8736) (l : Fin 896) :
    flatRows X T W CW EC EW (ix2 r l)
      = loss (X (ix2 r l)) (T (ix2 r l)) (∑ k : Fin 7, CW (ix2 (0 : Fin 1) k) * EC (ix2 k l))
          (∑ a : Fin 128, W (ix2 r a) * EW (ix2 a l)) := rfl

/-- Batch by batch: entry `(b, r, l)` is the loss of entry `(b, r, l)` under the lane's code weight `CW (0, 0, l)` and the
    anchor weight `Σ_a W (b, r, a) · EW (a, l)`. -/
def batchRows (X T : (⟨3, ![16, 546, 896]⟩ : Shape).Idx → EReal) (CW : (⟨3, ![1, 1, 896]⟩ : Shape).Idx → EReal)
    (W : (⟨3, ![16, 546, 128]⟩ : Shape).Idx → EReal) (EW : (⟨2, ![128, 896]⟩ : Shape).Idx → EReal) :
    (⟨3, ![16, 546, 896]⟩ : Shape).Idx → EReal :=
  fun i => loss (X i) (T i) (CW (ix3 (0 : Fin 1) (0 : Fin 1) (i 2)))
    (∑ a : Fin 128, W (ix3 (i 0) (i 1) a) * EW (ix2 a (i 2)))

theorem batchRows_apply (X T : (⟨3, ![16, 546, 896]⟩ : Shape).Idx → EReal) (CW : (⟨3, ![1, 1, 896]⟩ : Shape).Idx → EReal)
    (W : (⟨3, ![16, 546, 128]⟩ : Shape).Idx → EReal) (EW : (⟨2, ![128, 896]⟩ : Shape).Idx → EReal)
    (b : Fin 16) (r : Fin 546) (l : Fin 896) :
    batchRows X T CW W EW (ix3 b r l)
      = loss (X (ix3 b r l)) (T (ix3 b r l)) (CW (ix3 (0 : Fin 1) (0 : Fin 1) l))
          (∑ a : Fin 128, W (ix3 b r a) * EW (ix2 a l)) := rfl

/-- All rows at once, over the re-laid arguments and the two 0/1 matrices, re-laid back: the plain result. -/
theorem flatRows_eq_spec (x t : (⟨3, ![16, 69888, 7]⟩ : Shape).Idx → EReal) (w : (⟨2, ![16, 69888]⟩ : Shape).Idx → EReal)
    (cw : (⟨1, ![7]⟩ : Shape).Idx → EReal) (EC : (⟨2, ![7, 896]⟩ : Shape).Idx → EReal)
    (EW : (⟨2, ![128, 896]⟩ : Shape).Idx → EReal)
    (hEC : ∀ (k : Fin 7) (l : Fin 896), EC (ix2 k l) = if l.val % 7 = k.val then ((1 : ℝ) : EReal) else ((0 : ℝ) : EReal))
    (hEW : ∀ (a : Fin 128) (l : Fin 896), EW (ix2 a l) = if l.val / 7 = a.val then ((1 : ℝ) : EReal) else ((0 : ℝ) : EReal))
    (hx : (⟨3, ![16, 69888, 7]⟩ : Shape).ShapeCasts ⟨2, ![8736, 896]⟩)
    (hw : (⟨2, ![16, 69888]⟩ : Shape).ShapeCasts ⟨2, ![8736, 128]⟩)
    (hc : (⟨1, ![7]⟩ : Shape).ShapeCasts ⟨2, ![1, 7]⟩)
    (ho : (⟨2, ![8736, 896]⟩ : Shape).ShapeCasts ⟨3, ![16, 69888, 7]⟩) :
    shapeCast ⟨3, ![16, 69888, 7]⟩
      (flatRows (shapeCast ⟨2, ![8736, 896]⟩ x hx) (shapeCast ⟨2, ![8736, 896]⟩ t hx) (shapeCast ⟨2, ![8736, 128]⟩ w hw)
        (shapeCast ⟨2, ![1, 7]⟩ cw hc) EC EW) ho
      = spec x t w cw := by
  funext j
  obtain ⟨b, a, k, rfl⟩ : ∃ (b : Fin 16) (a : Fin 69888) (k : Fin 7), j = ix3 b a k := ⟨j 0, j 1, j 2, eq_ix3 j⟩
  have hb := b.isLt
  have ha := a.isLt
  have hk := k.isLt
  obtain ⟨f, hf⟩ : ∃ f : ℕ, f = (b.val * 69888 + a.val) * 7 + k.val := ⟨_, rfl⟩
  have hr : f / 896 < 8736 := by omega
  have hl : f % 896 < 896 := by omega
  rw [shapeCast_apply _ ho (ix3 b a k) (ix2 ⟨f / 896, hr⟩ ⟨f % 896, hl⟩) (by
    rw [Shape.rowMajor_val_two, Shape.rowMajor_val_three]
    show f / 896 * 896 + f % 896 = (b.val * 69888 + a.val) * 7 + k.val
    omega)]
  rw [flatRows_apply]
  rw [shapeCast_apply x hx (ix2 ⟨f / 896, hr⟩ ⟨f % 896, hl⟩) (ix3 b a k) (by
    rw [Shape.rowMajor_val_two, Shape.rowMajor_val_three]
    show (b.val * 69888 + a.val) * 7 + k.val = f / 896 * 896 + f % 896
    omega)]
  rw [shapeCast_apply t hx (ix2 ⟨f / 896, hr⟩ ⟨f % 896, hl⟩) (ix3 b a k) (by
    rw [Shape.rowMajor_val_two, Shape.rowMajor_val_three]
    show (b.val * 69888 + a.val) * 7 + k.val = f / 896 * 896 + f % 896
    omega)]
  rw [sum_mul_pick (fun k' : Fin 7 => shapeCast ⟨2, ![1, 7]⟩ cw hc (ix2 (0 : Fin 1) k'))
      (fun k' : Fin 7 => EC (ix2 k' ⟨f % 896, hl⟩)) (f % 896 % 7) (by omega) (fun k' => hEC k' ⟨f % 896, hl⟩)]
  rw [sum_mul_pick (fun a' : Fin 128 => shapeCast ⟨2, ![8736, 128]⟩ w hw (ix2 ⟨f / 896, hr⟩ a'))
      (fun a' : Fin 128 => EW (ix2 a' ⟨f % 896, hl⟩)) (f % 896 / 7) (by omega) (fun a' => hEW a' ⟨f % 896, hl⟩)]
  rw [shapeCast_apply cw hc (ix2 (0 : Fin 1) ⟨f % 896 % 7, by omega⟩) (ix1 k) (by
    rw [Shape.rowMajor_val_two, Shape.rowMajor_val_one]
    show k.val = 0 * 7 + f % 896 % 7
    omega)]
  rw [shapeCast_apply w hw (ix2 ⟨f / 896, hr⟩ ⟨f % 896 / 7, by omega⟩) (ix2 b a) (by
    rw [Shape.rowMajor_val_two, Shape.rowMajor_val_two]
    show b.val * 69888 + a.val = f / 896 * 128 + f % 896 / 7
    omega)]
  rfl

/-- Batch by batch, over the re-laid arguments, the code weights spread over the lanes and the 0/1 anchor matrix, re-laid
    back: the plain result. -/
theorem batchRows_eq_spec (x t : (⟨3, ![16, 69888, 7]⟩ : Shape).Idx → EReal) (w : (⟨2, ![16, 69888]⟩ : Shape).Idx → EReal)
    (cw : (⟨1, ![7]⟩ : Shape).Idx → EReal) (CW : (⟨3, ![1, 1, 896]⟩ : Shape).Idx → EReal)
    (EW : (⟨2, ![128, 896]⟩ : Shape).Idx → EReal)
    (hCW : ∀ (l : Fin 896) (k : Fin 7), l.val % 7 = k.val → CW (ix3 (0 : Fin 1) (0 : Fin 1) l) = cw (ix1 k))
    (hEW : ∀ (a : Fin 128) (l : Fin 896), EW (ix2 a l) = if l.val / 7 = a.val then ((1 : ℝ) : EReal) else ((0 : ℝ) : EReal))
    (hx1 : (⟨3, ![16, 69888, 7]⟩ : Shape).ShapeCasts ⟨2, ![16, 489216]⟩)
    (hx2 : (⟨2, ![16, 489216]⟩ : Shape).ShapeCasts ⟨3, ![16, 546, 896]⟩)
    (hw : (⟨2, ![16, 69888]⟩ : Shape).ShapeCasts ⟨3, ![16, 546, 128]⟩)
    (ho1 : (⟨3, ![16, 546, 896]⟩ : Shape).ShapeCasts ⟨2, ![16, 489216]⟩)
    (ho2 : (⟨2, ![16, 489216]⟩ : Shape).ShapeCasts ⟨3, ![16, 69888, 7]⟩) :
    shapeCast ⟨3, ![16, 69888, 7]⟩
      (shapeCast ⟨2, ![16, 489216]⟩
        (batchRows (shapeCast ⟨3, ![16, 546, 896]⟩ (shapeCast ⟨2, ![16, 489216]⟩ x hx1) hx2)
          (shapeCast ⟨3, ![16, 546, 896]⟩ (shapeCast ⟨2, ![16, 489216]⟩ t hx1) hx2) CW
          (shapeCast ⟨3, ![16, 546, 128]⟩ w hw) EW) ho1) ho2
      = spec x t w cw := by
  funext j
  obtain ⟨b, a, k, rfl⟩ : ∃ (b : Fin 16) (a : Fin 69888) (k : Fin 7), j = ix3 b a k := ⟨j 0, j 1, j 2, eq_ix3 j⟩
  have hb := b.isLt
  have ha := a.isLt
  have hk := k.isLt
  obtain ⟨g, hg⟩ : ∃ g : ℕ, g = a.val * 7 + k.val := ⟨_, rfl⟩
  have hg' : g < 489216 := by omega
  have hr : g / 896 < 546 := by omega
  have hl : g % 896 < 896 := by omega
  rw [shapeCast_apply _ ho2 (ix3 b a k) (ix2 b ⟨g, hg'⟩) (by
    rw [Shape.rowMajor_val_two, Shape.rowMajor_val_three]
    show b.val * 489216 + g = (b.val * 69888 + a.val) * 7 + k.val
    omega)]
  rw [shapeCast_apply _ ho1 (ix2 b ⟨g, hg'⟩) (ix3 b ⟨g / 896, hr⟩ ⟨g % 896, hl⟩) (by
    rw [Shape.rowMajor_val_two, Shape.rowMajor_val_three]
    show (b.val * 546 + g / 896) * 896 + g % 896 = b.val * 489216 + g
    omega)]
  rw [batchRows_apply]
  rw [shapeCast_apply _ hx2 (ix3 b ⟨g / 896, hr⟩ ⟨g % 896, hl⟩) (ix2 b ⟨g, hg'⟩) (by
    rw [Shape.rowMajor_val_two, Shape.rowMajor_val_three]
    show b.val * 489216 + g = (b.val * 546 + g / 896) * 896 + g % 896
    omega)]
  rw [shapeCast_apply x hx1 (ix2 b ⟨g, hg'⟩) (ix3 b a k) (by
    rw [Shape.rowMajor_val_two, Shape.rowMajor_val_three]
    show (b.val * 69888 + a.val) * 7 + k.val = b.val * 489216 + g
    omega)]
  rw [shapeCast_apply _ hx2 (ix3 b ⟨g / 896, hr⟩ ⟨g % 896, hl⟩) (ix2 b ⟨g, hg'⟩) (by
    rw [Shape.rowMajor_val_two, Shape.rowMajor_val_three]
    show b.val * 489216 + g = (b.val * 546 + g / 896) * 896 + g % 896
    omega)]
  rw [shapeCast_apply t hx1 (ix2 b ⟨g, hg'⟩) (ix3 b a k) (by
    rw [Shape.rowMajor_val_two, Shape.rowMajor_val_three]
    show (b.val * 69888 + a.val) * 7 + k.val = b.val * 489216 + g
    omega)]
  rw [hCW ⟨g % 896, hl⟩ k (by show g % 896 % 7 = k.val; omega)]
  rw [sum_mul_pick (fun a' : Fin 128 => shapeCast ⟨3, ![16, 546, 128]⟩ w hw (ix3 b ⟨g / 896, hr⟩ a'))
      (fun a' : Fin 128 => EW (ix2 a' ⟨g % 896, hl⟩)) (g % 896 / 7) (by omega) (fun a' => hEW a' ⟨g % 896, hl⟩)]
  rw [shapeCast_apply w hw (ix3 b ⟨g / 896, hr⟩ ⟨g % 896 / 7, by omega⟩) (ix2 b a) (by
    rw [Shape.rowMajor_val_two, Shape.rowMajor_val_three]
    show b.val * 69888 + a.val = (b.val * 546 + g / 896) * 128 + g % 896 / 7
    omega)]
  rfl

end Cert.SmoothL1

end
-- ==== Proof.KernelBlocks.lean ====
/-
  From the kernel's 26 grid points to its whole `[8736, 896]` result.

  Point `t` works on rows `336 · t … 336 · t + 335` of the predictions, the targets and the anchor weights, and on the
  whole of the code weights and of the two 0/1 matrices; it writes back rows `336 · t …` of the result.  So every
  point writes a block of ONE function of the six arrays (`flatRows`), the 26 blocks tile the `8736 = 26 · 336` rows, and
  the result array ends holding that function.
-/
import proofs.«151317_g2000705892487599_pallasbulk_762_2_alg».proof.Proof.KernelBody
import proofs.«151317_g2000705892487599_pallasbulk_762_2_alg».proof.Proof.RowLayout
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.SmoothL1

variable (m : (ℓ : Loc nD τ sig) → Buf (Elt Ideal) ℓ)

theorem zeros : (![0, 0] : Fin 2 → Nat) = fun _ => 0 := funext fun a => by fin_cases a <;> rfl

/-- One element of one point's block is the matching element of `flatRows`, once each loaded block is known to be the
    matching part of its array. -/
theorem point_eq (x t : Vec Ideal S336x896 .f32) (cw : Vec Ideal S1x7 .f32) (ec : Vec Ideal S7x896 .f32)
    (w : Vec Ideal S336x128 .f32) (ew : Vec Ideal S128x896 .f32)
    (X T : S8736x896.Idx → EReal) (W : S8736x128.Idx → EReal) (CW : S1x7.Idx → EReal) (EC : S7x896.Idx → EReal)
    (EW : S128x896.Idx → EReal) (p : Fin 336) (q : Fin 896) (r : Fin 8736) (l : Fin 896)
    (hx : x (ix2 p q) = X (ix2 r l)) (ht : t (ix2 p q) = T (ix2 r l))
    (hcw : ∀ k : Fin 7, cw (ix2 (0 : Fin 1) k) = CW (ix2 (0 : Fin 1) k))
    (hec : ∀ k : Fin 7, ec (ix2 k q) = EC (ix2 k l))
    (hw : ∀ a : Fin 128, w (ix2 p a) = W (ix2 r a))
    (hew : ∀ a : Fin 128, ew (ix2 a q) = EW (ix2 a l)) :
    k0_pay1 x t cw ec w ew (ix2 p q) = flatRows X T W CW EC EW (ix2 r l) := by
  rw [Body.pay_apply, flatRows_apply, hx, ht]
  simp only [hcw, hec, hw, hew]

/-- The windows' block positions at every point: the row windows sit at block `t`, column block 0; the three
    whole-array windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

set_option maxHeartbeats 4000000 in
/-- What point `t` writes back is block `t` of `flatRows` of the arrays as the grid finds them. -/
theorem flushed_eq (c : Dev nD) (t : Fin cfg0.N) :
    (dats m 0 c).flushed 6 t = ((cfg0.win 6).blk t).view.read (Elt Ideal)
      (flatRows (V m c main_v0) (V m c main_v1) (V m c main_v2) (V m c main_v3) (V m c main_v8) (V m c main_v13)) := by
  show (cfg0.win 6).cut (grid0.coords t) ((dats m 0 c).after 6 t) = _
  rw [after0_6]
  unfold out0_6
  rw [View.canon_unit_zero zeros]
  simp only [View.ld_unit_zero (S := S336x896) zeros, View.ld_unit_zero (S := S1x7) zeros,
    View.ld_unit_zero (S := S7x896) zeros, View.ld_unit_zero (S := S336x128) zeros,
    View.ld_unit_zero (S := S128x896) zeros]
  obtain ⟨e00, e01, e10, e11, e20, e21, e30, e31, e40, e41, e50, e51, e60, e61⟩ := idx_facts t
  funext y
  have hy0 : (y 0).val < 336 := (y 0).isLt
  have hy1 : (y 1).val < 896 := (y 1).isLt
  have ht : t.val < 26 := t.isLt
  refine (congrArg (k0_pay1 (iblk m c 0 t) (iblk m c 1 t) (iblk m c 3 t) (iblk m c 4 t) (iblk m c 2 t) (iblk m c 5 t))
    (eq_ix2 y)).trans ?_
  refine (point_eq (iblk m c 0 t) (iblk m c 1 t) (iblk m c 3 t) (iblk m c 4 t) (iblk m c 2 t) (iblk m c 5 t)
    (V m c main_v0) (V m c main_v1) (V m c main_v2) (V m c main_v3) (V m c main_v8) (V m c main_v13)
    (y 0) (y 1) ⟨t.val * 336 + (y 0).val, by omega⟩ (y 1) ?_ ?_ ?_ ?_ ?_ ?_).trans ?_
  · show V m c main_v0 (((cfg0.win 0).blk t).view.emb (ix2 (y 0) (y 1))) = V m c main_v0 _
    refine congrArg (V m c main_v0) (funext fun a => Fin.ext ?_)
    match a with
    | ⟨0, _⟩ => show win0_0.index t (0 : Fin 2) * 336 + 1 * (y 0).val = t.val * 336 + (y 0).val; omega
    | ⟨1, _⟩ => show win0_0.index t (1 : Fin 2) * 896 + 1 * (y 1).val = (y 1).val; omega
  · show V m c main_v1 (((cfg0.win 1).blk t).view.emb (ix2 (y 0) (y 1))) = V m c main_v1 _
    refine congrArg (V m c main_v1) (funext fun a => Fin.ext ?_)
    match a with
    | ⟨0, _⟩ => show win0_1.index t (0 : Fin 2) * 336 + 1 * (y 0).val = t.val * 336 + (y 0).val; omega
    | ⟨1, _⟩ => show win0_1.index t (1 : Fin 2) * 896 + 1 * (y 1).val = (y 1).val; omega
  · intro k
    show V m c main_v3 (((cfg0.win 3).blk t).view.emb (ix2 (0 : Fin 1) k)) = V m c main_v3 _
    refine congrArg (V m c main_v3) (funext fun a => Fin.ext ?_)
    match a with
    | ⟨0, _⟩ => show win0_3.index t (0 : Fin 2) * 1 + 1 * 0 = 0; omega
    | ⟨1, _⟩ => show win0_3.index t (1 : Fin 2) * 7 + 1 * k.val = k.val; omega
  · intro k
    show V m c main_v8 (((cfg0.win 4).blk t).view.emb (ix2 k (y 1))) = V m c main_v8 _
    refine congrArg (V m c main_v8) (funext fun a => Fin.ext ?_)
    match a with
    | ⟨0, _⟩ => show win0_4.index t (0 : Fin 2) * 7 + 1 * k.val = k.val; omega
    | ⟨1, _⟩ => show win0_4.index t (1 : Fin 2) * 896 + 1 * (y 1).val = (y 1).val; omega
  · intro a'
    show V m c main_v2 (((cfg0.win 2).blk t).view.emb (ix2 (y 0) a')) = V m c main_v2 _
    refine congrArg (V m c main_v2) (funext fun a => Fin.ext ?_)
    match a with
    | ⟨0, _⟩ => show win0_2.index t (0 : Fin 2) * 336 + 1 * (y 0).val = t.val * 336 + (y 0).val; omega
    | ⟨1, _⟩ => show win0_2.index t (1 : Fin 2) * 128 + 1 * a'.val = a'.val; omega
  · intro a'
    show V m c main_v13 (((cfg0.win 5).blk t).view.emb (ix2 a' (y 1))) = V m c main_v13 _
    refine congrArg (V m c main_v13) (funext fun a => Fin.ext ?_)
    match a with
    | ⟨0, _⟩ => show win0_5.index t (0 : Fin 2) * 128 + 1 * a'.val = a'.val; omega
    | ⟨1, _⟩ => show win0_5.index t (1 : Fin 2) * 896 + 1 * (y 1).val = (y 1).val; omega
  · show flatRows _ _ _ _ _ _ _ = flatRows _ _ _ _ _ _ (((cfg0.win 6).blk t).view.emb y)
    refine congrArg (flatRows (V m c main_v0) (V m c main_v1) (V m c main_v2) (V m c main_v3) (V m c main_v8) (V m c main_v13))
      (funext fun a => Fin.ext ?_)
    match a with
    | ⟨0, _⟩ => show t.val * 336 + (y 0).val = win0_6.index t (0 : Fin 2) * 336 + 1 * (y 0).val; omega
    | ⟨1, _⟩ => show (y 1).val = win0_6.index t (1 : Fin 2) * 896 + 1 * (y 1).val; omega

/-- An index of the result is in point `t`'s block iff each coordinate is in the block's range on its axis. -/
theorem mem_blk (t : Fin cfg0.N) (i : S8736x896.Idx) :
    i ∈ ((cfg0.win 6).blk t).view.set ↔ ∀ a : Fin 2, win0_6.index t a * S336x896.size a ≤ (i a).val ∧ (i a).val < win0_6.index t a * S336x896.size a + S336x896.size a := by
  show i ∈ ((View.whole main_v14).slice (win0_6.rect t)).set ↔ _
  rw [View.set_slice_whole, Rect.mem_set_unit]
  exact Iff.rfl

/-- Every row of the result lies in the block of the point `row / 336`. -/
theorem cover (i : S8736x896.Idx) :
    ∃ t : Fin cfg0.N, (cfg0.win 6).flush t = true ∧ i ∈ ((cfg0.win 6).blk t).view.set := by
  have hi0 : (i 0).val < 8736 := (i 0).isLt
  have hi1 : (i 1).val < 896 := (i 1).isLt
  refine ⟨⟨(i 0).val / 336, by show (i 0).val / 336 < 26; omega⟩, flush0_6 _, ?_⟩
  rw [mem_blk]
  obtain ⟨-, -, -, -, -, -, -, -, -, -, -, -, e60, e61⟩ := idx_facts ⟨(i 0).val / 336, by show (i 0).val / 336 < 26; omega⟩
  intro a
  match a with
  | ⟨0, _⟩ =>
    show win0_6.index _ (0 : Fin 2) * 336 ≤ (i 0).val ∧ (i 0).val < win0_6.index _ (0 : Fin 2) * 336 + 336
    rw [e60]; show (i 0).val / 336 * 336 ≤ (i 0).val ∧ (i 0).val < (i 0).val / 336 * 336 + 336; omega
  | ⟨1, _⟩ =>
    show win0_6.index _ (1 : Fin 2) * 896 ≤ (i 1).val ∧ (i 1).val < win0_6.index _ (1 : Fin 2) * 896 + 896
    rw [e61]; omega

/-- The result array after the grid: `flatRows` of the six arrays as the grid found them. -/
theorem final (c : Dev nD) : (dats m 0 c).arrAt 6 cfg0.N
    = flatRows (V m c main_v0) (V m c main_v1) (V m c main_v2) (V m c main_v3) (V m c main_v8) (V m c main_v13) :=
  (dats m 0 c).arrAt_eq_of_cover 6 _ (fun t _ => flushed_eq m c t) cover

end Cert.KernelIdeal.Blocks

end
-- ==== Proof.LaneCodes.lean ====
/-
  The lanes of an 896-wide row and the 0/1 matrices that spread weights over them.

  A row of 896 lanes holds 128 anchors of 7 codes each: lane `l` is code `l % 7` of anchor `l / 7`.  The programs
  compute these two numbers from a lane's 32-bit word by the host's signed remainder and signed quotient, each
  followed by the correction that turns truncation toward zero into rounding toward minus infinity; on the 896
  non-negative lanes the correction never fires, which is checked lane by lane (`remWord_lane`, `quotWord_lane`).

  A comparison of two words, turned into a real number, is one where they are equal and zero elsewhere
  (`uitofp_cmpi_eq`): so the matrices `lane % 7 = code` and `lane / 7 = anchor` are 0/1 rows with a single one.
-/
import Idealize.ShloMosaic.PureOps.Ideal
import Idealize.ShloMosaic.Lib.ValueIdx

noncomputable section

namespace Cert.SmoothL1

open Idealize.ShloMosaic Idealize.ShloMosaic.ValueIdx

/-- The divisor as the remainder computes it: `7`, replaced by `1` if it were `0`. -/
def divisorWord : BitVec 32 := Scalar.select (IntOp.cmpi .eq 7#32 0#32) 1#32 7#32

/-- The floored remainder of a word by 7: the truncated remainder, plus 7 when it is non-zero and its sign differs
    from the divisor's. -/
def remWord (x : BitVec 32) : BitVec 32 :=
  Scalar.select
    (IntOp.andi
      (IntOp.cmpi .ne (IntOp.cmpi .slt (IntOp.remsi .host x divisorWord) 0#32) (IntOp.cmpi .slt divisorWord 0#32))
      (IntOp.cmpi .ne (IntOp.remsi .host x divisorWord) 0#32))
    (IntOp.addi (IntOp.remsi .host x divisorWord) divisorWord)
    (IntOp.remsi .host x divisorWord)

/-- The sign of a word: 0, -1 or 1. -/
def signWord (x : BitVec 32) : BitVec 32 := if x = 0 then 0 else if x.msb then -1 else 1

/-- The floored quotient of a word by 7: the truncated quotient, less one when the signs differ and the remainder is
    non-zero. -/
def quotWord (x : BitVec 32) : BitVec 32 :=
  Scalar.select
    (IntOp.andi (IntOp.cmpi .ne (signWord x) (signWord 7#32)) (IntOp.cmpi .ne (IntOp.remsi .host x 7#32) 0#32))
    (IntOp.subi (IntOp.divsi .host x 7#32) 1#32)
    (IntOp.divsi .host x 7#32)

/-- On each of the 896 lanes the floored remainder is the lane's code. -/
theorem remWord_lane : ∀ l : Fin 896, remWord (BitVec.ofNat 32 l.val) = BitVec.ofNat 32 (l.val % 7) := by
  decide +kernel

/-- On each of the 896 lanes the floored quotient is the lane's anchor. -/
theorem quotWord_lane : ∀ l : Fin 896, quotWord (BitVec.ofNat 32 l.val) = BitVec.ofNat 32 (l.val / 7) := by
  decide +kernel

/-- Small naturals are distinct as 32-bit words. -/
theorem ofNat_inj_small {a b : ℕ} (ha : a < 896) (hb : b < 896) : BitVec.ofNat 32 a = BitVec.ofNat 32 b ↔ a = b := by
  constructor
  · intro h
    have h' := congrArg BitVec.toNat h
    rw [BitVec.toNat_ofNat, BitVec.toNat_ofNat, Nat.mod_eq_of_lt (by omega), Nat.mod_eq_of_lt (by omega)] at h'
    exact h'
  · intro h; rw [h]

/-- A comparison for equality, read as a real: one where the words are equal, zero elsewhere. -/
theorem uitofp_cmpi_eq (a b : BitVec 32) :
    FloatOps.uitofp (F := Ideal) .f32 (IntOp.cmpi .eq a b) = if a = b then ((1 : ℝ) : EReal) else ((0 : ℝ) : EReal) := by
  by_cases h : a = b
  · subst h
    rw [if_pos rfl]
    show (((BitVec.ofBool (a == a)).toNat : ℝ) : EReal) = _
    simp
  · rw [if_neg h]
    show (((BitVec.ofBool (a == b)).toNat : ℝ) : EReal) = _
    simp [h]

/-- Adding the zero word changes nothing. -/
theorem addi_zero (a : BitVec 32) : IntOp.addi a 0#32 = a := by
  show a + 0#32 = a
  exact BitVec.add_zero a

end Cert.SmoothL1

end
-- ==== Proof.KernelArrays.lean ====
/-
  What the kernel's grid finds in each of its six input arrays.

  The predictions, targets and anchor weights arrive re-laid row-major as `[8736, 896]`, `[8736, 896]` and
  `[8736, 128]` arrays, the code weights as one `[1, 7]` row.  The two remaining inputs are 0/1 matrices computed
  from lane numbers alone: `codeRows` is one at `(k, l)` exactly when lane `l` carries code `k` (`l % 7 = k`), and
  `anchorRows` is one at `(a, l)` exactly when lane `l` belongs to anchor `a` of its row (`l / 7 = a`).
-/
import proofs.«151317_g2000705892487599_pallasbulk_762_2_alg».proof.Proof.Gen.KernelIdeal.Frame
import proofs.«151317_g2000705892487599_pallasbulk_762_2_alg».proof.Proof.LaneCodes
import Idealize.ShloMosaic.Lib.Pipeline.Value
import Idealize.ShloMosaic.Lib.ValueIdx
import Idealize.ShloMosaic.Lib.StableHlo.Run

noncomputable section

namespace Cert.KernelIdeal.Entry

open Idealize.ShloMosaic Idealize.ShloMosaic.TcCoe Idealize.SL.Sem Idealize.ShloMosaic.ValueIdx
open Cert.KernelIdeal Cert.KernelIdeal.Gen Cert.SmoothL1

variable (m : (ℓ : Loc nD τ sig) → Buf (Elt Ideal) ℓ)

/-- The predictions as the grid finds them: the argument re-laid as `[8736, 896]`. -/
theorem preds_eq (c : Dev nD) : (V m c main_v0 : S8736x896.Idx → EReal)
    = shapeCast S8736x896 (m ((c : Thread nD τ).loc main_arg0)) shapeCasts_S16x69888x7_S8736x896 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The targets as the grid finds them: the argument re-laid as `[8736, 896]`. -/
theorem targets_eq (c : Dev nD) : (V m c main_v1 : S8736x896.Idx → EReal)
    = shapeCast S8736x896 (m ((c : Thread nD τ).loc main_arg1)) shapeCasts_S16x69888x7_S8736x896 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The anchor weights as the grid finds them: the argument re-laid as `[8736, 128]`. -/
theorem anchors_eq (c : Dev nD) : (V m c main_v2 : S8736x128.Idx → EReal)
    = shapeCast S8736x128 (m ((c : Thread nD τ).loc main_arg2)) shapeCasts_S16x69888_S8736x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The code weights as the grid finds them: the argument as one row. -/
theorem codes_eq (c : Dev nD) : (V m c main_v3 : S1x7.Idx → EReal)
    = shapeCast S1x7 (m ((c : Thread nD τ).loc main_arg3)) shapeCasts_S7_S1x7 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

set_option maxHeartbeats 2000000 in
/-- Entry `(k, l)` of the code matrix: the comparison of lane `l`'s floored remainder by 7 with `k`, as a real. -/
theorem codeRows_word (c : Dev nD) (k : Fin 7) (l : Fin 896) : (V m c main_v8 : S7x896.Idx → EReal) (ix2 k l)
    = FloatOps.uitofp (F := Ideal) .f32 (IntOp.cmpi .eq (remWord (BitVec.ofNat 32 l.val)) (BitVec.ofNat 32 k.val)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 2000000 in
/-- Entry `(a, l)` of the anchor matrix: the comparison of lane `l`'s floored quotient by 7 with `a`, as a real. -/
theorem anchorRows_word (c : Dev nD) (a : Fin 128) (l : Fin 896) : (V m c main_v13 : S128x896.Idx → EReal) (ix2 a l)
    = FloatOps.uitofp (F := Ideal) .f32 (IntOp.cmpi .eq (quotWord (BitVec.ofNat 32 l.val)) (BitVec.ofNat 32 a.val)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  simp only [cast_cast, cast_eq]
  rfl

/-- The code matrix is one where the lane's code is `k` and zero elsewhere. -/
theorem codeRows_apply (c : Dev nD) (k : Fin 7) (l : Fin 896) : (V m c main_v8 : S7x896.Idx → EReal) (ix2 k l)
    = if l.val % 7 = k.val then ((1 : ℝ) : EReal) else ((0 : ℝ) : EReal) := by
  rw [codeRows_word, remWord_lane, uitofp_cmpi_eq]
  exact if_congr (ofNat_inj_small (by have := l.isLt; omega) (by have := k.isLt; omega)) rfl rfl

/-- The anchor matrix is one where the lane's anchor is `a` and zero elsewhere. -/
theorem anchorRows_apply (c : Dev nD) (a : Fin 128) (l : Fin 896) : (V m c main_v13 : S128x896.Idx → EReal) (ix2 a l)
    = if l.val / 7 = a.val then ((1 : ℝ) : EReal) else ((0 : ℝ) : EReal) := by
  rw [anchorRows_word, quotWord_lane, uitofp_cmpi_eq]
  exact if_congr (ofNat_inj_small (by have := l.isLt; omega) (by have := a.isLt; omega)) rfl rfl

end Cert.KernelIdeal.Entry

end
-- ==== Proof.KernelRun.lean ====
/-
  The kernel's run, read: the result array is the plain result of the arguments.

  After the grid the `[8736, 896]` array holds `flatRows` of the re-laid arguments and the two 0/1 matrices; the one
  operation after the grid re-lays it as `[16, 69888, 7]`, which is `spec` of the arguments (`flatRows_eq_spec`).
-/
import proofs.«151317_g2000705892487599_pallasbulk_762_2_alg».proof.Proof.KernelBlocks
import proofs.«151317_g2000705892487599_pallasbulk_762_2_alg».proof.Proof.KernelArrays
import proofs.«151317_g2000705892487599_pallasbulk_762_2_alg».proof.Proof.RowLayout
import Idealize.ShloMosaic.Lib.StableHlo.Run

noncomputable section

namespace Cert.KernelIdeal.Result

open Idealize.ShloMosaic Idealize.ShloMosaic.TcCoe Idealize.SL.Sem Idealize.ShloMosaic.ValueIdx
open Cert.KernelIdeal Cert.KernelIdeal.Gen Cert.SmoothL1

variable (m : (ℓ : Loc nD τ sig) → Buf (Elt Ideal) ℓ) (ρ : Dev nD → PrngReg)

/-- The result buffer after the operation that follows the grid. -/
theorem tail_eq (c : Dev nD) :
    (Pipeline.afterTail₀ cfgs (dats m) 0 (V0 m) [hostOps1] c main_v15 : S16x69888x7.Idx → EReal)
      = spec (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v15) = _
  after_results
  rw [show Pipeline.withArrays (cfgs 0).spec c (V0 m c) (fun w => (dats m 0 c).arrAt w (cfgs 0).N) (Proc.devRef .tc main_v14)
      = flatRows (V m c main_v0) (V m c main_v1) (V m c main_v2) (V m c main_v3) (V m c main_v8) (V m c main_v13) from
    (Pipeline.withArrays_arr spec0 launch0.win.arr_inj c _ _ 6).trans (Blocks.final m c)]
  rw [Entry.preds_eq, Entry.targets_eq, Entry.anchors_eq, Entry.codes_eq]
  exact flatRows_eq_spec _ _ _ _ _ _ (Entry.codeRows_apply m c) (Entry.anchorRows_apply m c) _ _ _ _

/-- Every weakly fair execution terminates with the result at `spec` of the arguments and the arguments unchanged. -/
theorem run : θ_run defs (onTc (τ := τ) (main (F := Ideal))) ⟨m, fun _ => 0, ρ⟩ fun r => ∀ c : Dev nD,
      r.2.mem ((c : Thread nD τ).loc main_v15)
        = spec (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.ReferenceBody.lean ====
/-
  What one grid point of the reference computes, element by element.

  A point holds one batch: a `[1, 546, 896]` block of predictions and of targets, the `[1, 546, 128]` anchor weights of
  the batch, the `[1, 1, 896]` code weights spread over the lanes and the 0/1 anchor matrix.  Its result at `(z, p, q)`
  is the loss of the element at `(z, p, q)` under the lane's code weight and the anchor weight
  `Σ_a w (z, p, a) · anchorRows (a, q)`, a matrix product into a zero accumulator: an exact sum over the extended reals.
-/
import proofs.«151317_g2000705892487599_pallasbulk_762_2_alg».proof.Proof.Gen.ReferenceIdeal.Frame
import proofs.«151317_g2000705892487599_pallasbulk_762_2_alg».proof.Proof.Loss
import proofs.«151317_g2000705892487599_pallasbulk_762_2_alg».proof.Proof.LibPlainProduct
import Idealize.ShloMosaic.Lib.Pipeline.Value
import Idealize.ShloMosaic.Lib.ValueIdx
import Idealize.ShloMosaic.Lib.ValueLayout

noncomputable section

namespace Cert.ReferenceIdeal.Body

open Idealize.ShloMosaic Idealize.ShloMosaic.ValueIdx
open Cert.ReferenceIdeal Cert.ReferenceIdeal.Gen Cert.SmoothL1

/-- A `[1, 1, n]` row repeated over `[1, b, n]`: entry `(z, p, q)` is the row's entry `q`. -/
theorem rowOver_apply {b n : ℕ} (v : (⟨3, ![1, 1, n]⟩ : Shape).Idx → EReal)
    (h : (⟨3, ![1, 1, n]⟩ : Shape).Broadcasts ⟨3, ![1, b, n]⟩) (z : Fin 1) (p : Fin b) (q : Fin n) :
    broadcastTo ⟨3, ![1, b, n]⟩ v h (ix3 z p q) = v (ix3 (0 : Fin 1) (0 : Fin 1) q) := by
  refine broadcastTo_apply v h (ix3 z p q) (ix3 (0 : Fin 1) (0 : Fin 1) q) fun ax => ?_
  match ax with
  | ⟨0, _⟩ => rfl
  | ⟨1, _⟩ => rfl
  | ⟨2, _⟩ =>
    show q.val = if n = 1 then 0 else q.val
    split
    · have := q.isLt; omega
    · rfl

/-- The stored value at `(z, p, q)` of a point's block. -/
theorem pay_apply (x t : FVec Ideal S1x546x896 .f32) (cw : FVec Ideal S1x1x896 .f32) (w : FVec Ideal S1x546x128 .f32)
    (ew : FVec Ideal S128x896 .f32) (z : Fin 1) (p : Fin 546) (q : Fin 896) :
    k0_pay1 x t cw w ew (ix3 z p q)
      = loss (x (ix3 z p q)) (t (ix3 z p q)) (cw (ix3 (0 : Fin 1) (0 : Fin 1) q))
          (∑ a : Fin 128, w (ix3 (0 : Fin 1) p a) * ew (ix2 a q)) := by
  have hc := rowOver_apply cw Gen.broadcasts_S1x1x896_S1x546x896 z p q
  have hw := (shapeCast_ab_1ab_apply
      (FloatOps.matmul dot_S546x128_S128x896_S546x896_1_0_0_1_n_n none
        (shapeCast S546x128 w Gen.shapeCasts_S1x546x128_S546x128) ew (constant S546x896 .f32 0x00000000#32))
      Gen.shapeCasts_S546x896_S1x546x896 z p q).trans
    (Cert.PlainProduct.matmul_nn_apply Gen.dot_S546x128_S128x896_S546x896_1_0_0_1_n_n_wf none
      (shapeCast S546x128 w Gen.shapeCasts_S1x546x128_S546x128) ew p q)
  have hs : ∀ a : Fin 128, shapeCast S546x128 w Gen.shapeCasts_S1x546x128_S546x128 (ix2 p a) = w (ix3 (0 : Fin 1) p a) :=
    fun a => shapeCast_1ab_ab_apply w Gen.shapeCasts_S1x546x128_S546x128 p a
  unfold k0_pay1
  simp only [shapeCast_self]
  show loss (x (ix3 z p q)) (t (ix3 z p q))
      (broadcastTo S1x546x896 cw Gen.broadcasts_S1x1x896_S1x546x896 (ix3 z p q))
      (shapeCast S1x546x896
        (FloatOps.matmul dot_S546x128_S128x896_S546x896_1_0_0_1_n_n none
          (shapeCast S546x128 w Gen.shapeCasts_S1x546x128_S546x128) ew (constant S546x896 .f32 0x00000000#32))
        Gen.shapeCasts_S546x896_S1x546x896 (ix3 z p q)) = _
  rw [hc, hw]
  simp only [hs]

end Cert.ReferenceIdeal.Body

end
-- ==== Proof.ReferenceBlocks.lean ====
/-
  From the reference's 16 grid points to its whole `[16, 546, 896]` result.

  Point `t` works on batch `t`: all 546 rows of its predictions, targets and anchor weights, and the whole of the
  spread code weights and of the 0/1 anchor matrix; it writes back batch `t` of the result.  So every point writes a
  block of ONE function of the five arrays (`batchRows`), the 16 blocks tile the 16 batches, and the result array ends
  holding that function.
-/
import proofs.«151317_g2000705892487599_pallasbulk_762_2_alg».proof.Proof.ReferenceBody
import proofs.«151317_g2000705892487599_pallasbulk_762_2_alg».proof.Proof.RowLayout
import Idealize.ShloMosaic.Lib.Pipeline.Value
import Idealize.ShloMosaic.Lib.ValueIdx

noncomputable section

namespace Cert.ReferenceIdeal.Blocks

open Idealize.ShloMosaic Idealize.ShloMosaic.TcCoe Idealize.SL.Sem Idealize.ShloMosaic.ValueIdx
open Idealize.ShloMosaic.Pipeline (Dat)
open Cert.ReferenceIdeal Cert.ReferenceIdeal.Gen Cert.SmoothL1

variable (m : (ℓ : Loc nD τ sig) → Buf (Elt Ideal) ℓ)

theorem zeros3 : (![0, 0, 0] : Fin 3 → Nat) = fun _ => 0 := funext fun a => by fin_cases a <;> rfl
theorem zeros2 : (![0, 0] : Fin 2 → Nat) = fun _ => 0 := funext fun a => by fin_cases a <;> rfl

/-- One element of one point's block is the matching element of `batchRows`, once each loaded block is known to be the
    matching part of its array. -/
theorem point_eq (x t : Vec Ideal S1x546x896 .f32) (cw : Vec Ideal S1x1x896 .f32) (w : Vec Ideal S1x546x128 .f32)
    (ew : Vec Ideal S128x896 .f32)
    (X T : S16x546x896.Idx → EReal) (CW : S1x1x896.Idx → EReal) (W : S16x546x128.Idx → EReal)
    (EW : S128x896.Idx → EReal) (z : Fin 1) (p : Fin 546) (q : Fin 896) (b : Fin 16)
    (hx : x (ix3 z p q) = X (ix3 b p q)) (ht : t (ix3 z p q) = T (ix3 b p q))
    (hcw : cw (ix3 (0 : Fin 1) (0 : Fin 1) q) = CW (ix3 (0 : Fin 1) (0 : Fin 1) q))
    (hw : ∀ a : Fin 128, w (ix3 (0 : Fin 1) p a) = W (ix3 b p a))
    (hew : ∀ a : Fin 128, ew (ix2 a q) = EW (ix2 a q)) :
    k0_pay1 x t cw w ew (ix3 z p q) = batchRows X T CW W EW (ix3 b p q) := by
  rw [Body.pay_apply, batchRows_apply, hx, ht, hcw]
  simp only [hw, hew]

/-- The windows' block positions at every point: the batch windows sit at block `(t, 0, 0)`, the two whole-array
    windows at the zero block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

set_option maxHeartbeats 4000000 in
/-- What point `t` writes back is block `t` of `batchRows` of the arrays as the grid finds them. -/
theorem flushed_eq (c : Dev nD) (t : Fin cfg0.N) :
    (dats m 0 c).flushed 5 t = ((cfg0.win 5).blk t).view.read (Elt Ideal)
      (batchRows (V m c main_v1) (V m c main_v3) (V m c main_v8) (V m c main_v4) (V m c main_v16)) := by
  show (cfg0.win 5).cut (grid0.coords t) ((dats m 0 c).after 5 t) = _
  rw [after0_5]
  unfold out0_5
  rw [View.canon_unit_zero zeros3]
  simp only [View.ld_unit_zero (S := S1x546x896) zeros3, View.ld_unit_zero (S := S1x1x896) zeros3,
    View.ld_unit_zero (S := S1x546x128) zeros3, View.ld_unit_zero (S := S128x896) zeros2]
  obtain ⟨e00, e01, e02, e10, e11, e12, e20, e21, e22, e30, e31, e32, e40, e41, e50, e51, e52⟩ := idx_facts t
  funext y
  have hy0 : (y 0).val < 1 := (y 0).isLt
  have hy1 : (y 1).val < 546 := (y 1).isLt
  have hy2 : (y 2).val < 896 := (y 2).isLt
  have ht : t.val < 16 := t.isLt
  refine (congrArg (k0_pay1 (iblk m c 0 t) (iblk m c 1 t) (iblk m c 2 t) (iblk m c 3 t) (iblk m c 4 t)) (eq_ix3 y)).trans ?_
  refine (point_eq (iblk m c 0 t) (iblk m c 1 t) (iblk m c 2 t) (iblk m c 3 t) (iblk m c 4 t)
    (V m c main_v1) (V m c main_v3) (V m c main_v8) (V m c main_v4) (V m c main_v16)
    (y 0) (y 1) (y 2) ⟨t.val, ht⟩ ?_ ?_ ?_ ?_ ?_).trans ?_
  ·
    show V m c main_v1 (((cfg0.win 0).blk t).view.emb (ix3 (y 0) (y 1) (y 2))) = V m c main_v1 _
    refine congrArg (V m c main_v1) (funext fun a => Fin.ext ?_)
    match a with
    | ⟨0, _⟩ => show win0_0.index t (0 : Fin 3) * 1 + 1 * (y 0).val = t.val; omega
    | ⟨1, _⟩ => show win0_0.index t (1 : Fin 3) * 546 + 1 * (y 1).val = (y 1).val; omega
    | ⟨2, _⟩ => show win0_0.index t (2 : Fin 3) * 896 + 1 * (y 2).val = (y 2).val; omega
  ·
    show V m c main_v3 (((cfg0.win 1).blk t).view.emb (ix3 (y 0) (y 1) (y 2))) = V m c main_v3 _
    refine congrArg (V m c main_v3) (funext fun a => Fin.ext ?_)
    match a with
    | ⟨0, _⟩ => show win0_1.index t (0 : Fin 3) * 1 + 1 * (y 0).val = t.val; omega
    | ⟨1, _⟩ => show win0_1.index t (1 : Fin 3) * 546 + 1 * (y 1).val = (y 1).val; omega
    | ⟨2, _⟩ => show win0_1.index t (2 : Fin 3) * 896 + 1 * (y 2).val = (y 2).val; omega
  ·
    show V m c main_v8 (((cfg0.win 2).blk t).view.emb (ix3 (0 : Fin 1) (0 : Fin 1) (y 2))) = V m c main_v8 _
    refine congrArg (V m c main_v8) (funext fun a => Fin.ext ?_)
    match a with
    | ⟨0, _⟩ => show win0_2.index t (0 : Fin 3) * 1 + 1 * 0 = 0; omega
    | ⟨1, _⟩ => show win0_2.index t (1 : Fin 3) * 1 + 1 * 0 = 0; omega
    | ⟨2, _⟩ => show win0_2.index t (2 : Fin 3) * 896 + 1 * (y 2).val = (y 2).val; omega
  · intro a'
    show V m c main_v4 (((cfg0.win 3).blk t).view.emb (ix3 (0 : Fin 1) (y 1) a')) = V m c main_v4 _
    refine congrArg (V m c main_v4) (funext fun a => Fin.ext ?_)
    match a with
    | ⟨0, _⟩ => show win0_3.index t (0 : Fin 3) * 1 + 1 * 0 = t.val; omega
    | ⟨1, _⟩ => show win0_3.index t (1 : Fin 3) * 546 + 1 * (y 1).val = (y 1).val; omega
    | ⟨2, _⟩ => show win0_3.index t (2 : Fin 3) * 128 + 1 * a'.val = a'.val; omega
  · intro a'
    show V m c main_v16 (((cfg0.win 4).blk t).view.emb (ix2 a' (y 2))) = V m c main_v16 _
    refine congrArg (V m c main_v16) (funext fun a => Fin.ext ?_)
    match a with
    | ⟨0, _⟩ => show win0_4.index t (0 : Fin 2) * 128 + 1 * a'.val = a'.val; omega
    | ⟨1, _⟩ => show win0_4.index t (1 : Fin 2) * 896 + 1 * (y 2).val = (y 2).val; omega
  · show batchRows _ _ _ _ _ _ = batchRows _ _ _ _ _ (((cfg0.win 5).blk t).view.emb y)
    refine congrArg (batchRows (V m c main_v1) (V m c main_v3) (V m c main_v8) (V m c main_v4) (V m c main_v16))
      (funext fun a => Fin.ext ?_)
    match a with
    | ⟨0, _⟩ => show t.val = win0_5.index t (0 : Fin 3) * 1 + 1 * (y 0).val; omega
    | ⟨1, _⟩ => show (y 1).val = win0_5.index t (1 : Fin 3) * 546 + 1 * (y 1).val; omega
    | ⟨2, _⟩ => show (y 2).val = win0_5.index t (2 : Fin 3) * 896 + 1 * (y 2).val; omega

/-- An index of the result is in point `t`'s block iff each coordinate is in the block's range on its axis. -/
theorem mem_blk (t : Fin cfg0.N) (i : S16x546x896.Idx) :
    i ∈ ((cfg0.win 5).blk t).view.set ↔ ∀ a : Fin 3, win0_5.index t a * S1x546x896.size a ≤ (i a).val ∧ (i a).val < win0_5.index t a * S1x546x896.size a + S1x546x896.size a := by
  show i ∈ ((View.whole main_v17).slice (win0_5.rect t)).set ↔ _
  rw [View.set_slice_whole, Rect.mem_set_unit]
  exact Iff.rfl

/-- Every entry of the result lies in the block of the point of its batch. -/
theorem cover (i : S16x546x896.Idx) :
    ∃ t : Fin cfg0.N, (cfg0.win 5).flush t = true ∧ i ∈ ((cfg0.win 5).blk t).view.set := by
  have hi0 : (i 0).val < 16 := (i 0).isLt
  have hi1 : (i 1).val < 546 := (i 1).isLt
  have hi2 : (i 2).val < 896 := (i 2).isLt
  refine ⟨⟨(i 0).val, hi0⟩, flush0_5 _, ?_⟩
  rw [mem_blk]
  obtain ⟨-, -, -, -, -, -, -, -, -, -, -, -, -, -, e50, e51, e52⟩ := idx_facts ⟨(i 0).val, hi0⟩
  intro a
  match a with
  | ⟨0, _⟩ =>
    show win0_5.index _ (0 : Fin 3) * 1 ≤ (i 0).val ∧ (i 0).val < win0_5.index _ (0 : Fin 3) * 1 + 1
    rw [e50]; show (i 0).val * 1 ≤ (i 0).val ∧ (i 0).val < (i 0).val * 1 + 1; omega
  | ⟨1, _⟩ =>
    show win0_5.index _ (1 : Fin 3) * 546 ≤ (i 1).val ∧ (i 1).val < win0_5.index _ (1 : Fin 3) * 546 + 546
    rw [e51]; omega
  | ⟨2, _⟩ =>
    show win0_5.index _ (2 : Fin 3) * 896 ≤ (i 2).val ∧ (i 2).val < win0_5.index _ (2 : Fin 3) * 896 + 896
    rw [e52]; omega

/-- The result array after the grid: `batchRows` of the five arrays as the grid found them. -/
theorem final (c : Dev nD) : (dats m 0 c).arrAt 5 cfg0.N
    = batchRows (V m c main_v1) (V m c main_v3) (V m c main_v8) (V m c main_v4) (V m c main_v16) :=
  (dats m 0 c).arrAt_eq_of_cover 5 _ (fun t _ => flushed_eq m c t) cover

end Cert.ReferenceIdeal.Blocks

end
-- ==== Proof.ReferenceArrays.lean ====
/-
  What the reference's grid finds in each of its five input arrays.

  The predictions and targets arrive re-laid row-major, first as `[16, 489216]` and then as `[16, 546, 896]`; the anchor
  weights as `[16, 546, 128]`.  The code weights are repeated 128 times along a row of 896 lanes, so lane `l` holds
  code weight `l % 7` (`codeLanes_apply`).  The last input is the identity matrix of size 128 with every column repeated 7
  times: one at `(a, l)` exactly when lane `l` belongs to anchor `a` of its row, `l / 7 = a` (`anchorRows_apply`).
-/
import proofs.«151317_g2000705892487599_pallasbulk_762_2_alg».proof.Proof.Gen.ReferenceIdeal.Frame
import proofs.«151317_g2000705892487599_pallasbulk_762_2_alg».proof.Proof.LaneCodes
import Idealize.ShloMosaic.Lib.Pipeline.Value
import Idealize.ShloMosaic.Lib.ValueIdx
import Idealize.ShloMosaic.Lib.StableHlo.Run

noncomputable section

namespace Cert.ReferenceIdeal.Entry

open Idealize.ShloMosaic Idealize.ShloMosaic.TcCoe Idealize.SL.Sem Idealize.ShloMosaic.ValueIdx
open Cert.ReferenceIdeal Cert.ReferenceIdeal.Gen Cert.SmoothL1

variable (m : (ℓ : Loc nD τ sig) → Buf (Elt Ideal) ℓ)

/-- The predictions as the grid finds them. -/
theorem preds_eq (c : Dev nD) : (V m c main_v1 : S16x546x896.Idx → EReal)
    = shapeCast S16x546x896 (shapeCast S16x489216 (m ((c : Thread nD τ).loc main_arg0)) Gen.shapeCasts_S16x69888x7_S16x489216)
        Gen.shapeCasts_S16x489216_S16x546x896 := by
  dsimp only [Gen.V, Gen.V0]
  simp only [Gen.hostOps0, List.flatten_cons, List.flatten_nil, List.append_nil, List.cons_append, List.nil_append]
  after_results
  rfl

/-- The targets as the grid finds them. -/
theorem targets_eq (c : Dev nD) : (V m c main_v3 : S16x546x896.Idx → EReal)
    = shapeCast S16x546x896 (shapeCast S16x489216 (m ((c : Thread nD τ).loc main_arg1)) Gen.shapeCasts_S16x69888x7_S16x489216)
        Gen.shapeCasts_S16x489216_S16x546x896 := by
  dsimp only [Gen.V, Gen.V0]
  simp only [Gen.hostOps0, List.flatten_cons, List.flatten_nil, List.append_nil, List.cons_append, List.nil_append]
  after_results
  rfl

/-- The anchor weights as the grid finds them. -/
theorem anchors_eq (c : Dev nD) : (V m c main_v4 : S16x546x128.Idx → EReal)
    = shapeCast S16x546x128 (m ((c : Thread nD τ).loc main_arg2)) Gen.shapeCasts_S16x69888_S16x546x128 := by
  dsimp only [Gen.V, Gen.V0]
  simp only [Gen.hostOps0, List.flatten_cons, List.flatten_nil, List.append_nil, List.cons_append, List.nil_append]
  after_results
  rfl

/-- The code weights spread over the lanes, as a term of the argument. -/
theorem codeLanes_eq (c : Dev nD) : (V m c main_v8 : S1x1x896.Idx → EReal)
    = shapeCast S1x1x896 (shapeCast S896 (broadcastInDim S128x7 ![0, 1] Gen.bcast_S1x7_S128x7_0_1
        (shapeCast S1x7 (m ((c : Thread nD τ).loc main_arg3)) Gen.shapeCasts_S7_S1x7)) Gen.shapeCasts_S128x7_S896)
        Gen.shapeCasts_S896_S1x1x896 := by
  dsimp only [Gen.V, Gen.V0]
  simp only [Gen.hostOps0, List.flatten_cons, List.flatten_nil, List.append_nil, List.cons_append, List.nil_append]
  after_results
  rfl

/-- Lane `l` of the spread code weights is code weight `l % 7`. -/
theorem codeLanes_apply (c : Dev nD) (l : Fin 896) (k : Fin 7) (hk : l.val % 7 = k.val) :
    (V m c main_v8 : S1x1x896.Idx → EReal) (ix3 (0 : Fin 1) (0 : Fin 1) l)
      = (m ((c : Thread nD τ).loc main_arg3) : S7.Idx → EReal) (ix1 k) := by
  have hl := l.isLt
  rw [codeLanes_eq]
  rw [shapeCast_apply _ Gen.shapeCasts_S896_S1x1x896 (ix3 (0 : Fin 1) (0 : Fin 1) l) (ix1 l) (by
    rw [Shape.rowMajor_val_one, Shape.rowMajor_val_three]
    show l.val = (0 * 1 + 0) * 896 + l.val
    omega)]
  rw [shapeCast_apply _ Gen.shapeCasts_S128x7_S896 (ix1 l) (ix2 (⟨l.val / 7, by omega⟩ : Fin 128) k) (by
    rw [Shape.rowMajor_val_one, Shape.rowMajor_val_two]
    show l.val / 7 * 7 + k.val = l.val
    omega)]
  rw [broadcastInDim_apply _ Gen.bcast_S1x7_S128x7_0_1 _ (ix2 (⟨l.val / 7, by omega⟩ : Fin 128) k) (ix2 (0 : Fin 1) k)
    (fun a => by match a with | ⟨0, _⟩ => rfl | ⟨1, _⟩ => rfl)]
  rw [shapeCast_apply _ Gen.shapeCasts_S7_S1x7 (ix2 (0 : Fin 1) k) (ix1 k) (by
    rw [Shape.rowMajor_val_one, Shape.rowMajor_val_two]
    show k.val = 0 * 7 + k.val
    omega)]

/-- The anchor matrix as a term: the 128-identity with every column repeated 7 times. -/
theorem anchorRows_eq (c : Dev nD) : (V m c main_v16 : S128x896.Idx → EReal)
    = shapeCast S128x896 (broadcastInDim S128x128x7 ![0, 1] Gen.bcast_S128x128_S128x128x7_0_1
        (uitofp (F := Ideal) .f32 (cmpi .eq (addi (iotaInDim S128x128 32 0)
          (broadcastInDim S128x128 ![] Gen.bcast_S_S128x128 (constantI S_ 32 0#32))) (iotaInDim S128x128 32 1))))
        Gen.shapeCasts_S128x128x7_S128x896 := by
  dsimp only [Gen.V, Gen.V0]
  simp only [Gen.hostOps0, List.flatten_cons, List.flatten_nil, List.append_nil, List.cons_append, List.nil_append]
  after_results
  rfl

/-- The anchor matrix is one where the lane's anchor is `a` and zero elsewhere. -/
theorem anchorRows_apply (c : Dev nD) (a : Fin 128) (l : Fin 896) : (V m c main_v16 : S128x896.Idx → EReal) (ix2 a l)
    = if l.val / 7 = a.val then ((1 : ℝ) : EReal) else ((0 : ℝ) : EReal) := by
  have hl := l.isLt
  have ha := a.isLt
  rw [anchorRows_eq]
  rw [shapeCast_apply _ Gen.shapeCasts_S128x128x7_S128x896 (ix2 a l)
    (ix3 a (⟨l.val / 7, by omega⟩ : Fin 128) (⟨l.val % 7, by omega⟩ : Fin 7)) (by
    rw [Shape.rowMajor_val_three, Shape.rowMajor_val_two]
    show (a.val * 128 + l.val / 7) * 7 + l.val % 7 = a.val * 896 + l.val
    omega)]
  rw [broadcastInDim_apply _ Gen.bcast_S128x128_S128x128x7_0_1 _
    (ix3 a (⟨l.val / 7, by omega⟩ : Fin 128) (⟨l.val % 7, by omega⟩ : Fin 7)) (ix2 a (⟨l.val / 7, by omega⟩ : Fin 128))
    (fun ax => by match ax with | ⟨0, _⟩ => rfl | ⟨1, _⟩ => rfl)]
  show FloatOps.uitofp (F := Ideal) .f32 (IntOp.cmpi .eq (IntOp.addi (BitVec.ofNat 32 a.val) 0#32) (BitVec.ofNat 32 (l.val / 7))) = _
  rw [addi_zero, uitofp_cmpi_eq]
  exact if_congr ((ofNat_inj_small (by omega) (by omega)).trans eq_comm) rfl rfl

end Cert.ReferenceIdeal.Entry

end
-- ==== Proof.ReferenceRun.lean ====
/-
  The reference's run, read: the result array is the plain result of the arguments.

  After the grid the `[16, 546, 896]` array holds `batchRows` of the re-laid arguments, the spread code weights and the
  0/1 anchor matrix; the two operations after the grid re-lay it as `[16, 489216]` and then `[16, 69888, 7]`, which is
  `spec` of the arguments (`batchRows_eq_spec`).
-/
import proofs.«151317_g2000705892487599_pallasbulk_762_2_alg».proof.Proof.ReferenceBlocks
import proofs.«151317_g2000705892487599_pallasbulk_762_2_alg».proof.Proof.ReferenceArrays
import proofs.«151317_g2000705892487599_pallasbulk_762_2_alg».proof.Proof.RowLayout
import Idealize.ShloMosaic.Lib.StableHlo.Run

noncomputable section

namespace Cert.ReferenceIdeal.Result

open Idealize.ShloMosaic Idealize.ShloMosaic.TcCoe Idealize.SL.Sem Idealize.ShloMosaic.ValueIdx
open Cert.ReferenceIdeal Cert.ReferenceIdeal.Gen Cert.SmoothL1

variable (m : (ℓ : Loc nD τ sig) → Buf (Elt Ideal) ℓ) (ρ : Dev nD → PrngReg)

/-- The result buffer after the two operations that follow the grid. -/
theorem tail_eq (c : Dev nD) :
    (Pipeline.afterTail₀ cfgs (dats m) 0 (V0 m) [hostOps1] c main_v19 : S16x69888x7.Idx → EReal)
      = spec (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v19) = _
  after_results
  rw [show Pipeline.withArrays (cfgs 0).spec c (V0 m c) (fun w => (dats m 0 c).arrAt w (cfgs 0).N) (Proc.devRef .tc main_v17)
      = batchRows (V m c main_v1) (V m c main_v3) (V m c main_v8) (V m c main_v4) (V m c main_v16) from
    (Pipeline.withArrays_arr spec0 launch0.win.arr_inj c _ _ 5).trans (Blocks.final m c)]
  rw [Entry.preds_eq, Entry.targets_eq, Entry.anchors_eq]
  exact batchRows_eq_spec _ _ _ _ _ _ (Entry.codeLanes_apply m c) (Entry.anchorRows_apply m c) _ _ _ _ _

/-- Every weakly fair execution terminates with the result at `spec` of the arguments and the arguments unchanged. -/
theorem run : θ_run defs (onTc (τ := τ) (main (F := Ideal))) ⟨m, fun _ => 0, ρ⟩ fun r => ∀ c : Dev nD,
      r.2.mem ((c : Thread nD τ).loc main_v19)
        = spec (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v19 (Pipeline.mem_restRefs_of main_v19 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.ReferenceIdeal.Result

end
-- ==== Proof.lean ====
/-
  The weighted smooth-L1 loss kernel against its reference, over the extended reals.

  Both programs compute, for every entry `(b, a, k)` of a `[16, 69888, 7]` array, the loss
  `ℓ(|(x - t') · cw k|) · w (b, a)` (Proof/Loss.lean, `spec`), on arrays re-laid into rows of 896 lanes.  The kernel
  takes all 8736 rows in 26 blocks and spreads BOTH weights over the lanes by products with 0/1 matrices it builds from
  lane numbers; the reference takes 16 batches of 546 rows, gets the code weights already spread and the anchor weights
  through the same 0/1 matrix, built as a widened identity.  A product with a 0/1 row holding a single one is an exact
  sum with one non-zero term, over the extended reals too (a product with zero is zero there), so no finiteness of the
  inputs is used.  Each program's run is read back to `spec` of its arguments (Proof/KernelRun.lean,
  Proof/ReferenceRun.lean); the two results are then the same array.

  The three frames are the generated frame certificates; the idealization changed no operation, so `preserves` is
  trivial.
-/
import proofs.«151317_g2000705892487599_pallasbulk_762_2_alg».proof.Defs
import proofs.«151317_g2000705892487599_pallasbulk_762_2_alg».proof.Proof.Gen.Kernel
import proofs.«151317_g2000705892487599_pallasbulk_762_2_alg».proof.Proof.Gen.Kernel.Skeleton
import proofs.«151317_g2000705892487599_pallasbulk_762_2_alg».proof.Proof.Gen.Kernel.Launch
import proofs.«151317_g2000705892487599_pallasbulk_762_2_alg».proof.Proof.Gen.Kernel.Points
import proofs.«151317_g2000705892487599_pallasbulk_762_2_alg».proof.Proof.Gen.Kernel.Frame
import proofs.«151317_g2000705892487599_pallasbulk_762_2_alg».proof.Proof.Gen.KernelIdeal
import proofs.«151317_g2000705892487599_pallasbulk_762_2_alg».proof.Proof.Gen.KernelIdeal.Skeleton
import proofs.«151317_g2000705892487599_pallasbulk_762_2_alg».proof.Proof.Gen.KernelIdeal.Launch
import proofs.«151317_g2000705892487599_pallasbulk_762_2_alg».proof.Proof.Gen.KernelIdeal.Points
import proofs.«151317_g2000705892487599_pallasbulk_762_2_alg».proof.Proof.Gen.KernelIdeal.Frame
import proofs.«151317_g2000705892487599_pallasbulk_762_2_alg».proof.Proof.Gen.ReferenceIdeal
import proofs.«151317_g2000705892487599_pallasbulk_762_2_alg».proof.Proof.Gen.ReferenceIdeal.Skeleton
import proofs.«151317_g2000705892487599_pallasbulk_762_2_alg».proof.Proof.Gen.ReferenceIdeal.Launch
import proofs.«151317_g2000705892487599_pallasbulk_762_2_alg».proof.Proof.Gen.ReferenceIdeal.Points
import proofs.«151317_g2000705892487599_pallasbulk_762_2_alg».proof.Proof.Gen.ReferenceIdeal.Frame
import proofs.«151317_g2000705892487599_pallasbulk_762_2_alg».proof.Proof.Gen.Pre_finite_inputs
import Idealize.ShloMosaic.Adequacy
import Idealize.ShloMosaic.Init
import proofs.«151317_g2000705892487599_pallasbulk_762_2_alg».proof.Proof.KernelRun
import proofs.«151317_g2000705892487599_pallasbulk_762_2_alg».proof.Proof.ReferenceRun

noncomputable section

namespace Cert.Proof

open Idealize.ShloMosaic Idealize.SL.Sem Cert.SmoothL1

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Gen.frame m ρ

theorem preserves : Cert.preserves_Kernel_KernelIdeal := trivial

/-- Both idealized programs end with the result array at `spec` of their arguments, and the arguments agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Result.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
